-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S600000 : S_.BroadcastsInDim S600000 (![] : Fin 0 → Fin S600000.rank)
  reducesTo_S600000_S_d0 : S600000.ReducesTo [0] S_

variable [Facts]

def fn_part1 {F : FTy → Type} [FloatOps F] (main_arg2 : IVec S600000 32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S600000 32 := broadcastInDim S600000 ![] bcast_S_S600000 main_c_8
  let main_v25 : IVec S600000 1 := cmpi .sge main_arg2 main_v24
  let main_c_9 : IVec S_ 1 := constantI S_ 1 1#1
  let main_v26 : IVec S_ 1 := (fun x v => Host.reduce IntOp.andi x v reducesTo_S600000_S_d0 h_S_) main_v25 main_c_9
  let main_v27 : IVec S_ 1 := andi main_v23 main_v26
  main_v27

def fn {F : FTy → Type} [FloatOps F] (main_arg0 : FVec F S50000x128 .f32) (main_arg1 : IVec S600000 32) (main_arg2 : IVec S600000 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg6 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S5000x128 : Shape := ⟨2, ![5000, 128]⟩
abbrev S5000x1 : Shape := ⟨2, ![5000, 1]⟩
abbrev S1x128 : Shape := ⟨2, ![1, 128]⟩

abbrev nBuf : Space → Nat
  | .hbm => 63
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S600000, .f32⟩
  | .hbm, ⟨9, _⟩ => ⟨S_, .f32⟩
  | .hbm, ⟨10, _⟩ => ⟨S50000, .f32⟩
  | .hbm, ⟨11, _⟩ => ⟨S600000x1, .i32⟩
  | .hbm, ⟨12, _⟩ => ⟨S50000, .f32⟩
  | .hbm, ⟨13, _⟩ => ⟨S50000x1, .f32⟩
  | .hbm, ⟨14, _⟩ => ⟨S_, .f32⟩
  | .hbm, ⟨15, _⟩ => ⟨S50000x1, .f32⟩
  | .hbm, ⟨16, _⟩ => ⟨S50000x1, .f32⟩
  | .hbm, ⟨17, _⟩ => ⟨S_, .f32⟩
  | .hbm, ⟨18, _⟩ => ⟨S50000x1, .f32⟩
  | .hbm, ⟨19, _⟩ => ⟨S50000x1, .f32⟩
  | .hbm, ⟨20, _⟩ => ⟨S_, .f32⟩
  | .hbm, ⟨21, _⟩ => ⟨S50000x128, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x128, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S50000x128, .f32⟩
  | .hbm, ⟨40, _⟩ => ⟨S50000x128, .bf16⟩
  | .hbm, ⟨41, _⟩ => ⟨S_, .f32⟩
  | .hbm, ⟨42, _⟩ => ⟨S50000x128, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x128, .bf16⟩
  | .hbm, ⟨52, _⟩ => ⟨S600000x128, .f32⟩
  | .hbm, ⟨53, _⟩ => ⟨S_, .i32⟩
  | .hbm, ⟨54, _⟩ => ⟨S600000, .i32⟩
  | .hbm, ⟨55, _⟩ => ⟨S600000, .i1⟩
  | .hbm, ⟨56, _⟩ => ⟨S_, .i32⟩
  | .hbm, ⟨57, _⟩ => ⟨S600000, .i32⟩
  | .hbm, ⟨58, _⟩ => ⟨S600000, .i32⟩
  | .hbm, ⟨59, _⟩ => ⟨S600000, .i32⟩
  | .hbm, ⟨60, _⟩ => ⟨S600000x1, .i32⟩
  | .hbm, ⟨61, _⟩ => ⟨S50000x128, .f32⟩
  | .hbm, ⟨62, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128, .f32⟩
  | .local _ .vmem, ⟨8, _⟩ => ⟨S5000x128, .bf16⟩
  | .local _ .vmem, ⟨9, _⟩ => ⟨S5000x128, .bf16⟩
  | .local _ .vmem, ⟨10, _⟩ => ⟨S5000x128, .bf16⟩
  | .local _ .vmem, ⟨11, _⟩ => ⟨S5000x128, .bf16⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S128x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_c_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_c_8 : Ref sig .tc := ⟨.hbm, 43, rfl⟩
abbrev main_v26 : Ref sig .tc := ⟨.hbm, 44, rfl⟩
abbrev main_v27 : Ref sig .tc := ⟨.hbm, 45, rfl⟩
abbrev main_c_9 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_10 : Ref sig .tc := ⟨.hbm, 53, rfl⟩
abbrev main_v34 : Ref sig .tc := ⟨.hbm, 54, rfl⟩
abbrev main_v35 : Ref sig .tc := ⟨.hbm, 55, rfl⟩
abbrev main_c_11 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  bcast_S_S50000x1 : S_.BroadcastsInDim S50000x1 (![] : Fin 0 → Fin S50000x1.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .bf16 = 32 ∨ (Rect.block (s := S50000x128) S5000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .bf16 = 32 ∨ (Rect.block (s := S50000x128) S5000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S600000, .i32⟩
  | .hbm, ⟨9, _⟩ => ⟨S600000, .i1⟩
  | .hbm, ⟨10, _⟩ => ⟨S_, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000x1, .i32⟩
  | .hbm, ⟨15, _⟩ => ⟨S600000x128, .f32⟩
  | .hbm, ⟨16, _⟩ => ⟨S_, .f32⟩
  | .hbm, ⟨17, _⟩ => ⟨S50000x128, .f32⟩
  | .hbm, ⟨18, _⟩ => ⟨S600000x1, .i32⟩
  | .hbm, ⟨19, _⟩ => ⟨S50000x128, .f32⟩
  | .hbm, ⟨20, _⟩ => ⟨S_, .f32⟩
  | .hbm, ⟨21, _⟩ => ⟨S600000, .f32⟩
  | .hbm, ⟨22, _⟩ => ⟨S_, .f32⟩
  | .hbm, ⟨23, _⟩ => ⟨S50000, .f32⟩
  | .hbm, ⟨24, _⟩ => ⟨S600000x1, .i32⟩
  | .hbm, ⟨25, _⟩ => ⟨S50000, .f32⟩
  | .hbm, ⟨26, _⟩ => ⟨S50000x128, .f32⟩
  | .hbm, ⟨27, _⟩ => ⟨S50000x1, .f32⟩
  | .hbm, ⟨28, _⟩ => ⟨S_, .f32⟩
  | .hbm, ⟨29, _⟩ => ⟨S50000x1, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | .hbm, ⟨37, _⟩ => ⟨S_, .f32⟩
  | .hbm, ⟨38, _⟩ => ⟨S50000x128, .f32⟩
  | .hbm, ⟨39, _⟩ => ⟨S50000x128, .i1⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x128, .f32⟩
  | .hbm, ⟨53, _⟩ => ⟨S_, .f32⟩
  | .hbm, ⟨54, _⟩ => ⟨S50000x128, .f32⟩
  | .hbm, ⟨55, _⟩ => ⟨S600000x1, .i32⟩
  | .hbm, ⟨56, _⟩ => ⟨S50000x128, .f32⟩
  | .hbm, ⟨57, _⟩ => ⟨S_, .f32⟩
  | .hbm, ⟨58, _⟩ => ⟨S600000, .f32⟩
  | .hbm, ⟨59, _⟩ => ⟨S_, .f32⟩
  | .hbm, ⟨60, _⟩ => ⟨S50000, .f32⟩
  | .hbm, ⟨61, _⟩ => ⟨S600000x1, .i32⟩
  | .hbm, ⟨62, _⟩ => ⟨S50000, .f32⟩
  | .hbm, ⟨63, _⟩ => ⟨S50000x128, .f32⟩
  | .hbm, ⟨64, _⟩ => ⟨S50000x1, .f32⟩
  | .hbm, ⟨65, _⟩ => ⟨S_, .f32⟩
  | .hbm, ⟨66, _⟩ => ⟨S50000x1, .f32⟩
  | .hbm, ⟨67, _⟩ => ⟨S50000x1, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its result named. The program is four segments: the host operations that count
  in-degrees and aggregate the first layer's messages, the first layer's grid of ten row blocks, the host operations
  that aggregate the second layer's messages, and the second layer's grid. Each segment starts from the buffer
  contents the previous one leaves; after the last one every unscoped buffer holds the contents `W4`. The result
  buffer is the second grid's output array, so the run ends with the result at `W4` there and with the seven
  argument arrays as launched.
-/
import proofs.«100668_j71468255805600_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates without a fault, its result buffer holding what
    the last segment boundary's contents say (`W4` at the result's reference) and its arguments unchanged. -/
theorem run_out : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Hand

end
-- ==== Proof.Spec.lean ====
/-
  One layer of the network, entry by entry, on the extended reals. For a node (row) p and an output feature c the
  layer adds the node's aggregated messages to its own features, scales the sum by the node's weight q p (the
  reciprocal of its in-degree plus one), multiplies the scaled row by the weight matrix and adds the bias:

      out p c = act ( Σ_k ((msg p k + h p k) · q p) · W k c + b c ).

  The number of rows is a parameter: a block of 5000 rows of the grid and the whole array of 50000 rows are the same
  formula, and a row of the result depends only on the same row of h, msg and q.
-/
import Idealize.ShloMosaic.PureOps.Ideal
import Idealize.ShloMosaic.PureOps.Ideal.Laws
import Idealize.ShloMosaic.Lib.ValueIdx

noncomputable section

namespace Cert.Hand.Spec

open Idealize.ShloMosaic Idealize.ShloMosaic.ValueIdx

/-- The first layer's activation: x where x is at least zero, else the f32 constant nearest 0.01 times x. -/
def leaky (a : EReal) : EReal :=
  Scalar.select (FloatOps.cmpf (F := Ideal) (φ := .f32) .oge a (Ideal.ofBits .f32 0x00000000#32)) a
    (Ideal.ofBits .f32 0x3C23D70A#32 * a)

/-- One entry of a layer's output: row p, feature c. -/
def entry {n : Nat} (act : EReal → EReal) (h msg : (⟨2, ![n, 128]⟩ : Shape).Idx → EReal)
    (q : (⟨2, ![n, 1]⟩ : Shape).Idx → EReal) (W : (⟨2, ![128, 128]⟩ : Shape).Idx → EReal)
    (b : (⟨1, ![128]⟩ : Shape).Idx → EReal) (p : Fin n) (c : Fin 128) : EReal :=
  act ((∑ k : Fin 128, ((msg (ix2 p k) + h (ix2 p k)) * q (ix2 p (0 : Fin 1))) * W (ix2 k c)) + b (ix1 c))

/-- An entry reads only row p of h, msg and q, column c of W and entry c of b: two entries over arrays that agree
    there are equal (a block of rows against the whole array). -/
theorem entry_congr {n n' : Nat} (act : EReal → EReal) (h msg : (⟨2, ![n, 128]⟩ : Shape).Idx → EReal)
    (q : (⟨2, ![n, 1]⟩ : Shape).Idx → EReal) (W : (⟨2, ![128, 128]⟩ : Shape).Idx → EReal) (b : (⟨1, ![128]⟩ : Shape).Idx → EReal)
    (h' msg' : (⟨2, ![n', 128]⟩ : Shape).Idx → EReal) (q' : (⟨2, ![n', 1]⟩ : Shape).Idx → EReal)
    (W' : (⟨2, ![128, 128]⟩ : Shape).Idx → EReal) (b' : (⟨1, ![128]⟩ : Shape).Idx → EReal)
    (p : Fin n) (p' : Fin n') (c : Fin 128)
    (hh : ∀ k : Fin 128, h (ix2 p k) = h' (ix2 p' k)) (hm : ∀ k : Fin 128, msg (ix2 p k) = msg' (ix2 p' k))
    (hq : q (ix2 p (0 : Fin 1)) = q' (ix2 p' (0 : Fin 1))) (hW : ∀ k : Fin 128, W (ix2 k c) = W' (ix2 k c))
    (hb : b (ix1 c) = b' (ix1 c)) :
    entry act h msg q W b p c = entry act h' msg' q' W' b' p' c := by
  unfold entry
  rw [hq, hb]
  exact congrArg (fun s => act (s + b' (ix1 c))) (Finset.sum_congr rfl fun k _ => by rw [hh k, hm k, hW k])

/-- A layer's whole output array. -/
def layer {n : Nat} (act : EReal → EReal) (h msg : (⟨2, ![n, 128]⟩ : Shape).Idx → EReal)
    (q : (⟨2, ![n, 1]⟩ : Shape).Idx → EReal) (W : (⟨2, ![128, 128]⟩ : Shape).Idx → EReal)
    (b : (⟨1, ![128]⟩ : Shape).Idx → EReal) : (⟨2, ![n, 128]⟩ : Shape).Idx → EReal :=
  fun i => entry act h msg q W b (i 0) (i 1)

end Cert.Hand.Spec

end
-- ==== Proof.Body.lean ====
/-
  What one grid point's body computes, entry by entry. Both layers' bodies load a block of 5000 rows of the node
  features h, of the aggregated messages msg and of the per-node weights q, the whole weight matrix W and the bias b,
  and store (msg + h) · q times W plus b (the first layer through its activation). Changes of float format are the
  identity on the extended reals; the matrix product into a zero accumulator is the sum over the 128 contracted
  features; the per-node weight is broadcast along a row and the bias along a column.
-/
import proofs.«100668_j71468255805600_2_alg».proof.Proof.Gen.KernelIdeal.Skeleton
import proofs.«100668_j71468255805600_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Cert.Hand.Spec
open Idealize.ShloMosaic Idealize.ShloMosaic.TcCoe Idealize.ShloMosaic.ValueIdx

/-- A column of per-row values broadcast along the rows: entry (p, c) is the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's index of the product at output (row, feature) and contracted feature q: same row. -/
theorem lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and column q. -/
theorem lhs_col (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
/-- The right operand's index: row q … -/
theorem rhs_row (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
/-- … and the output's feature. -/
theorem rhs_col (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product of a block of rows with the weight matrix, into a zero accumulator, at row p and feature c:
    the sum over the contracted feature k of row p's entry k times the weight at (k, c). -/
theorem matmul_entry (lhs : FVec Ideal S5000x128 .bf16) (rhs : FVec Ideal S128x128 .bf16) (p : Fin 5000) (c : Fin 128) :
    matmul dot_S5000x128_S128x128_S5000x128_1_0_0_1_n_n none lhs rhs (constant S5000x128 .f32 0x00000000#32) (ix2 p c)
      = ∑ k : Fin 128, lhs (ix2 p k) * rhs (ix2 k c) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p c) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p c) ((contrEquiv1 dot_S5000x128_S128x128_S5000x128_1_0_0_1_n_n 128 rfl rfl).symm k) = ix2 k c := funext fun a => Fin.ext (by
    match a with
    | ⟨0, _⟩ => exact (rhs_row _ _).trans hk
    | ⟨1, _⟩ => exact rhs_col _ _)
  rw [el, er]

/-- The value a body computes before any activation, at row p and feature c of the block: the scaled row times the
    weight matrix plus the bias (the changes of float format are the identity). -/
theorem pre_entry (hh msg : FVec Ideal S5000x128 .f32) (q : FVec Ideal S5000x1 .f32) (W : FVec Ideal S128x128 .f32)
    (b : FVec Ideal S128 .f32) (h1 : S5000x128.ShapeCasts S5000x128) (h2 : S5000x1.ShapeCasts S5000x1)
    (h3 : S5000x1.Broadcasts S5000x128) (h4 : S128.ShapeCasts S1x128) (h5 : S1x128.Broadcasts S5000x128)
    (hb : FTy.bf16.bits < FTy.f32.bits) (p : Fin 5000) (c : Fin 128) :
    addf (matmul dot_S5000x128_S128x128_S5000x128_1_0_0_1_n_n none
        (truncf .bf16 (mulf (addf (shapeCast S5000x128 msg h1) hh) (broadcastTo S5000x128 (shapeCast S5000x1 q h2) h3)) hb)
        (truncf .bf16 W hb) (constant S5000x128 .f32 0x00000000#32))
      (broadcastTo S5000x128 (shapeCast S1x128 b h4) h5) (ix2 p c)
    = (∑ k : Fin 128, ((msg (ix2 p k) + hh (ix2 p k)) * q (ix2 p (0 : Fin 1))) * W (ix2 k c)) + b (ix1 c) := by
  show matmul dot_S5000x128_S128x128_S5000x128_1_0_0_1_n_n none _ _ _ (ix2 p c) + broadcastTo S5000x128 (shapeCast S1x128 b h4) h5 (ix2 p c) = _
  rw [matmul_entry, broadcastTo_1b_ab_apply, shapeCast_a_1a_apply]
  refine congrArg (· + b (ix1 c)) (Finset.sum_congr rfl fun k _ => ?_)
  show ((shapeCast S5000x128 msg h1 (ix2 p k) + hh (ix2 p k)) * broadcastTo S5000x128 (shapeCast S5000x1 q h2) h3 (ix2 p k)) * W (ix2 k c) = _
  rw [shapeCast_self, broadcastTo_a1_ab_apply, shapeCast_self]

/-- The first layer's activation applied to a whole block, read at an entry. -/
theorem leaky_entry (x : FVec Ideal S5000x128 .f32) (hb : FTy.bf16.bits < FTy.f32.bits) (j : S5000x128.Idx) :
    truncf .bf16 (select (cmpf .oge x (broadcast S5000x128 (FloatOps.ofBits .f32 0x00000000#32))) x
      (mulf (broadcast S5000x128 (FloatOps.ofBits .f32 0x3C23D70A#32)) x)) hb j = leaky (x j) := rfl

/-- The first layer's stored value at row p, feature c of the block. -/
theorem pay0_entry (v0 v1 : Vec Ideal S5000x128 .f32) (v3 : Vec Ideal S5000x1 .f32) (v9 : Vec Ideal S128x128 .f32)
    (v12 : Vec Ideal S128 .f32) (p : Fin 5000) (c : Fin 128) :
    k0_pay1 (F := Ideal) v0 v1 v3 v9 v12 (ix2 p c) = entry leaky v0 v1 v3 v9 v12 p c := by
  unfold k0_pay1
  rw [leaky_entry, pre_entry]
  rfl

/-- The second layer's stored value at row p, feature c of the block (no activation; its node features arrive in the
    shorter float format, which on the extended reals is the same number). -/
theorem pay1_entry (v0 : Vec Ideal S5000x128 .bf16) (v3 : Vec Ideal S5000x128 .f32) (v5 : Vec Ideal S5000x1 .f32)
    (v11 : Vec Ideal S128x128 .f32) (v14 : Vec Ideal S128 .f32) (p : Fin 5000) (c : Fin 128) :
    k1_pay1 (F := Ideal) v0 v3 v5 v11 v14 (ix2 p c) = entry id v0 v3 v5 v11 v14 p c := by
  unfold k1_pay1
  rw [pre_entry, shapeCast_self]
  rfl

end Cert.KernelIdeal.Hand

end
-- ==== Proof.Region0.lean ====
/-
  Region 0 of the kernel (the first layer's grid) as ONE function of the arrays it finds. The grid has ten points;
  point t works on rows 5000·t … 5000·t + 4999 of the node arrays (features, messages, per-node weights) and on the whole
  weight matrix and bias, and writes back rows 5000·t … 5000·t + 4999 of the output. A row of the layer's output depends
  only on the same row of its inputs, so what point t writes back is block t of the whole-array layer function, the ten
  blocks tile the output, and the output array ends holding the layer function of the arrays as the region found them.
-/
import proofs.«100668_j71468255805600_2_alg».proof.Proof.Gen.KernelIdeal.Frame
import proofs.«100668_j71468255805600_2_alg».proof.Proof.Body
import Idealize.ShloMosaic.Lib.Pipeline.Value
import Idealize.ShloMosaic.Lib.ValueIdx

set_option maxRecDepth 16384

noncomputable section

namespace Cert.KernelIdeal.Hand.R0

open Cert.KernelIdeal Cert.KernelIdeal.Gen Cert.KernelIdeal.Hand Cert.Hand.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The layer function of the arrays the region finds: node features, messages, per-node weights, weight matrix, bias. -/
def G (c : Dev nD) : S50000x128.Idx → EReal :=
  layer leaky (V c main_arg0) (V c main_v23) (V c main_v8) (V c main_arg3) (V c main_arg4)

/-- The printed index maps over the grid: the three node windows and the output move one block of rows per point; the
    weight matrix and the bias stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem t_lt (t : Fin cfg0.N) : t.val < 10 := lt_of_lt_of_eq t.isLt N_0

/-- Row p, column k of the node features' block at point t is row 5000·t + p of the array. -/
theorem blk_0 (c : Dev nD) (t : Fin cfg0.N) (p : Fin 5000) (k : Fin 128) (r : Fin 50000) (hr : r.val = t.val * 5000 + p.val) :
    iblk0 V c 0 t (ix2 p k) = V c main_arg0 (ix2 r k) := by
  obtain ⟨e0, e1, -⟩ := idx_facts t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The same for the messages' block. -/
theorem blk_1 (c : Dev nD) (t : Fin cfg0.N) (p : Fin 5000) (k : Fin 128) (r : Fin 50000) (hr : r.val = t.val * 5000 + p.val) :
    iblk0 V c 1 t (ix2 p k) = V c main_v23 (ix2 r k) := by
  obtain ⟨-, -, e0, e1, -⟩ := idx_facts t
  show V c main_v23 (((cfg0.win 1).blk t).view.emb (ix2 p k)) = V c main_v23 (ix2 r k)
  refine congrArg (V c main_v23) (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The same for the per-node weights' block (one column). -/
theorem blk_2 (c : Dev nD) (t : Fin cfg0.N) (p : Fin 5000) (r : Fin 50000) (hr : r.val = t.val * 5000 + p.val) :
    iblk0 V c 2 t (ix2 p (0 : Fin 1)) = V c main_v8 (ix2 r (0 : Fin 1)) := by
  obtain ⟨-, -, -, -, e0, e1, -⟩ := idx_facts t
  show V c main_v8 (((cfg0.win 2).blk t).view.emb (ix2 p (0 : Fin 1))) = V c main_v8 (ix2 r (0 : Fin 1))
  refine congrArg (V c main_v8) (funext fun a => Fin.ext ?_)
  match a with
  | ⟨0, _⟩ => show win0_2.index t (0 : Fin 2) * 5000 + 1 * p.val = r.val; omega
  | ⟨1, _⟩ => show win0_2.index t (1 : Fin 2) * 1 + 1 * 0 = 0; omega

/-- The weight matrix's block is the whole matrix at every point. -/
theorem blk_3 (c : Dev nD) (t : Fin cfg0.N) (k q : Fin 128) :
    iblk0 V c 3 t (ix2 k q) = V c main_arg3 (ix2 k q) := by
  obtain ⟨-, -, -, -, -, -, e0, e1, -⟩ := idx_facts t
  show V c main_arg3 (((cfg0.win 3).blk t).view.emb (ix2 k q)) = V c main_arg3 (ix2 k q)
  refine congrArg (V c main_arg3) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The bias's block is the whole bias at every point. -/
theorem blk_4 (c : Dev nD) (t : Fin cfg0.N) (q : Fin 128) :
    iblk0 V c 4 t (ix1 q) = V c main_arg4 (ix1 q) := by
  obtain ⟨-, -, -, -, -, -, -, -, e0, -⟩ := idx_facts t
  show V c main_arg4 (((cfg0.win 4).blk t).view.emb (ix1 q)) = V c main_arg4 (ix1 q)
  refine congrArg (V c main_arg4) (funext fun a => Fin.ext ?_)
  match a with
  | ⟨0, _⟩ => show win0_4.index t (0 : Fin 1) * 128 + 1 * q.val = q.val; omega

/-- WHAT POINT t WRITES BACK is block t of the layer function of the arrays the region found. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S5000x1) hz,
    View.ld_unit_zero (S := S128x128) hz, View.ld_unit_zero (S := S128) hz1]
  funext j
  obtain ⟨p, q, rfl⟩ : ∃ (p : Fin 5000) (q : Fin 128), j = ix2 p q := ⟨j 0, j 1, eq_ix2 j⟩
  have ht := t_lt t
  obtain ⟨-, -, -, -, -, -, -, -, -, e0, e1⟩ := idx_facts t
  have hi : ((cfg0.win 5).blk t).view.emb (ix2 p q) = (ix2 (⟨t.val * 5000 + p.val, by omega⟩ : Fin 50000) q : S50000x128.Idx) := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  show k0_pay1 (F := Ideal) (iblk0 V c 0 t) (iblk0 V c 1 t) (iblk0 V c 2 t) (iblk0 V c 3 t) (iblk0 V c 4 t) (ix2 p q)
    = G V c (((cfg0.win 5).blk t).view.emb (ix2 p q))
  rw [hi]
  refine (pay0_entry (iblk0 V c 0 t) (iblk0 V c 1 t) (iblk0 V c 2 t) (iblk0 V c 3 t) (iblk0 V c 4 t) p q).trans ?_
  exact entry_congr leaky (iblk0 V c 0 t) (iblk0 V c 1 t) (iblk0 V c 2 t) (iblk0 V c 3 t) (iblk0 V c 4 t)
    (V c main_arg0) (V c main_v23) (V c main_v8) (V c main_arg3) (V c main_arg4) p ⟨t.val * 5000 + p.val, by omega⟩ q
    (fun k => blk_0 V c t p k _ rfl) (fun k => blk_1 V c t p k _ rfl) (blk_2 V c t p _ rfl)
    (fun k => blk_3 V c t k q) (blk_4 V c t q)

/-- An index of the output array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v24).slice (win0_5.rect t)).set ↔ _
  rw [View.set_slice_whole, Rect.mem_set_unit]
  exact Iff.rfl

/-- Every index of the output is in the block of the point its row belongs to: row r is written by point r / 5000. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 5000, by rw [show cfg0.N = 10 from N_0]; omega⟩
  obtain ⟨-, -, -, -, -, -, -, -, -, e0, e1⟩ := idx_facts t
  have et : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE OUTPUT ARRAY after the region: the layer function of the arrays the region found. -/
theorem final (c : Dev nD) : (dat0 V c).arrAt 5 cfg0.N = G V c :=
  (dat0 V c).arrAt_eq_of_cover 5 (G V c) (fun t _ => flushed_eq V c t) (cover)

end Cert.KernelIdeal.Hand.R0

end
-- ==== Proof.Region1.lean ====
/-
  Region 1 of the kernel (the second layer's grid) as ONE function of the arrays it finds. The grid has ten points;
  point t works on rows 5000·t … 5000·t + 4999 of the node arrays (features, messages, per-node weights) and on the whole
  weight matrix and bias, and writes back rows 5000·t … 5000·t + 4999 of the output. A row of the layer's output depends
  only on the same row of its inputs, so what point t writes back is block t of the whole-array layer function, the ten
  blocks tile the output, and the output array ends holding the layer function of the arrays as the region found them.
-/
import proofs.«100668_j71468255805600_2_alg».proof.Proof.Gen.KernelIdeal.Frame
import proofs.«100668_j71468255805600_2_alg».proof.Proof.Body
import Idealize.ShloMosaic.Lib.Pipeline.Value
import Idealize.ShloMosaic.Lib.ValueIdx

set_option maxRecDepth 16384

noncomputable section

namespace Cert.KernelIdeal.Hand.R1

open Cert.KernelIdeal Cert.KernelIdeal.Gen Cert.KernelIdeal.Hand Cert.Hand.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The layer function of the arrays the region finds: node features, messages, per-node weights, weight matrix, bias. -/
def G (c : Dev nD) : S50000x128.Idx → EReal :=
  layer id (V c main_v24) (V c main_v40) (V c main_v8) (V c main_arg5) (V c main_arg6)

/-- The printed index maps over the grid: the three node windows and the output move one block of rows per point; the
    weight matrix and the bias stay at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

theorem t_lt (t : Fin cfg1.N) : t.val < 10 := lt_of_lt_of_eq t.isLt N_1

/-- Row p, column k of the node features' block at point t is row 5000·t + p of the array. -/
theorem blk_0 (c : Dev nD) (t : Fin cfg1.N) (p : Fin 5000) (k : Fin 128) (r : Fin 50000) (hr : r.val = t.val * 5000 + p.val) :
    iblk1 V c 0 t (ix2 p k) = V c main_v24 (ix2 r k) := by
  obtain ⟨e0, e1, -⟩ := idx_facts t
  show V c main_v24 (((cfg1.win 0).blk t).view.emb (ix2 p k)) = V c main_v24 (ix2 r k)
  refine congrArg (V c main_v24) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The same for the messages' block. -/
theorem blk_1 (c : Dev nD) (t : Fin cfg1.N) (p : Fin 5000) (k : Fin 128) (r : Fin 50000) (hr : r.val = t.val * 5000 + p.val) :
    iblk1 V c 1 t (ix2 p k) = V c main_v40 (ix2 r k) := by
  obtain ⟨-, -, e0, e1, -⟩ := idx_facts t
  show V c main_v40 (((cfg1.win 1).blk t).view.emb (ix2 p k)) = V c main_v40 (ix2 r k)
  refine congrArg (V c main_v40) (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- The same for the per-node weights' block (one column). -/
theorem blk_2 (c : Dev nD) (t : Fin cfg1.N) (p : Fin 5000) (r : Fin 50000) (hr : r.val = t.val * 5000 + p.val) :
    iblk1 V c 2 t (ix2 p (0 : Fin 1)) = V c main_v8 (ix2 r (0 : Fin 1)) := by
  obtain ⟨-, -, -, -, e0, e1, -⟩ := idx_facts t
  show V c main_v8 (((cfg1.win 2).blk t).view.emb (ix2 p (0 : Fin 1))) = V c main_v8 (ix2 r (0 : Fin 1))
  refine congrArg (V c main_v8) (funext fun a => Fin.ext ?_)
  match a with
  | ⟨0, _⟩ => show win1_2.index t (0 : Fin 2) * 5000 + 1 * p.val = r.val; omega
  | ⟨1, _⟩ => show win1_2.index t (1 : Fin 2) * 1 + 1 * 0 = 0; omega

/-- The weight matrix's block is the whole matrix at every point. -/
theorem blk_3 (c : Dev nD) (t : Fin cfg1.N) (k q : Fin 128) :
    iblk1 V c 3 t (ix2 k q) = V c main_arg5 (ix2 k q) := by
  obtain ⟨-, -, -, -, -, -, e0, e1, -⟩ := idx_facts t
  show V c main_arg5 (((cfg1.win 3).blk t).view.emb (ix2 k q)) = V c main_arg5 (ix2 k q)
  refine congrArg (V c main_arg5) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The bias's block is the whole bias at every point. -/
theorem blk_4 (c : Dev nD) (t : Fin cfg1.N) (q : Fin 128) :
    iblk1 V c 4 t (ix1 q) = V c main_arg6 (ix1 q) := by
  obtain ⟨-, -, -, -, -, -, -, -, e0, -⟩ := idx_facts t
  show V c main_arg6 (((cfg1.win 4).blk t).view.emb (ix1 q)) = V c main_arg6 (ix1 q)
  refine congrArg (V c main_arg6) (funext fun a => Fin.ext ?_)
  match a with
  | ⟨0, _⟩ => show win1_4.index t (0 : Fin 1) * 128 + 1 * q.val = q.val; omega

/-- WHAT POINT t WRITES BACK is block t of the layer function of the arrays the region found. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz,
    View.ld_unit_zero (S := S128x128) hz, View.ld_unit_zero (S := S128) hz1]
  funext j
  obtain ⟨p, q, rfl⟩ : ∃ (p : Fin 5000) (q : Fin 128), j = ix2 p q := ⟨j 0, j 1, eq_ix2 j⟩
  have ht := t_lt t
  obtain ⟨-, -, -, -, -, -, -, -, -, e0, e1⟩ := idx_facts t
  have hi : ((cfg1.win 5).blk t).view.emb (ix2 p q) = (ix2 (⟨t.val * 5000 + p.val, by omega⟩ : Fin 50000) q : S50000x128.Idx) := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  show k1_pay1 (F := Ideal) (iblk1 V c 0 t) (iblk1 V c 1 t) (iblk1 V c 2 t) (iblk1 V c 3 t) (iblk1 V c 4 t) (ix2 p q)
    = G V c (((cfg1.win 5).blk t).view.emb (ix2 p q))
  rw [hi]
  refine (pay1_entry (iblk1 V c 0 t) (iblk1 V c 1 t) (iblk1 V c 2 t) (iblk1 V c 3 t) (iblk1 V c 4 t) p q).trans ?_
  exact entry_congr id (iblk1 V c 0 t) (iblk1 V c 1 t) (iblk1 V c 2 t) (iblk1 V c 3 t) (iblk1 V c 4 t)
    (V c main_v24) (V c main_v40) (V c main_v8) (V c main_arg5) (V c main_arg6) p ⟨t.val * 5000 + p.val, by omega⟩ q
    (fun k => blk_0 V c t p k _ rfl) (fun k => blk_1 V c t p k _ rfl) (blk_2 V c t p _ rfl)
    (fun k => blk_3 V c t k q) (blk_4 V c t q)

/-- An index of the output array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v41).slice (win1_5.rect t)).set ↔ _
  rw [View.set_slice_whole, Rect.mem_set_unit]
  exact Iff.rfl

/-- Every index of the output is in the block of the point its row belongs to: row r is written by point r / 5000. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 5000, by rw [show cfg1.N = 10 from N_1]; omega⟩
  obtain ⟨-, -, -, -, -, -, -, -, -, e0, e1⟩ := idx_facts t
  have et : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY after the region: the layer function of the arrays the region found. -/
theorem final (c : Dev nD) : (dat1 V c).arrAt 5 cfg1.N = G V c :=
  (dat1 V c).arrAt_eq_of_cover 5 (G V c) (fun t _ => flushed_eq V c t) (cover)

end Cert.KernelIdeal.Hand.R1

end
-- ==== Proof.HostSide.lean ====
/-
  The idealized kernel's result as ONE function of its arguments. Around the two grids the host computes, once, each
  node's in-degree (ones scattered onto zeros at the destination ids) and its weight 1 / (deg + 1), and per layer the
  aggregated messages (the source nodes' feature rows gathered, then scatter-added onto zeros at the destination ids,
  a negative id first wrapped by adding the number of nodes). Reading each array a grid finds back through the
  segments: the first grid finds the features x, the messages of x and the weights, and leaves H, the first layer's
  array; the second finds H, the messages of H and the same weights, and leaves the result.
-/
import proofs.«100668_j71468255805600_2_alg».proof.Proof.Gen.KernelIdeal.Frame
import proofs.«100668_j71468255805600_2_alg».proof.Proof.Region0
import proofs.«100668_j71468255805600_2_alg».proof.Proof.Region1
import Idealize.ShloMosaic.Lib.StableHlo.Run
import Idealize.ShloMosaic.PureOps.Ideal

set_option maxRecDepth 16384

noncomputable section

namespace Cert.KernelIdeal.Hand

open Cert.KernelIdeal Cert.KernelIdeal.Gen Cert.Hand.Spec
open Idealize.ShloMosaic Idealize.ShloMosaic.TcCoe Idealize.SL.Sem Idealize.ShloMosaic.StableHlo
open Idealize.ShloMosaic.Pipeline (Dat)

/-- A node id wrapped NumPy-style: a negative id has the number of nodes added. -/
def wrap (v : IVec S600000 32) : IVec S600000 32 :=
  select (cmpi .slt v (broadcastInDim S600000 ![] bcast_S_S600000 (constantI S_ 32 0#32)))
    (addi v (broadcastInDim S600000 ![] bcast_S_S600000 (constantI S_ 32 50000#32))) v

/-- The feature rows of the edges' source nodes. -/
def gath {φ : FTy} (h : FVec Ideal S50000x128 φ) (src : IVec S600000 32) : FVec Ideal S600000x128 φ :=
  Host.gather gather_S50000x128_S600000x1_S600000x128_1_0_n_n_0_1_1128 h (broadcastInDim S600000x1 ![0] bcast_S600000_S600000x1_0 (wrap src))

/-- The edges' rows g summed into their destination nodes: scatter-added onto zeros at the ids dv. -/
def agg (g : FVec Ideal S600000x128 .f32) (dv : IVec S600000 32) : FVec Ideal S50000x128 .f32 :=
  Host.scatterAdd scatter_S50000x128_S600000x1_S600000x128_1_0_0_1 (broadcastInDim S50000x128 ![] bcast_S_S50000x128 (constant S_ .f32 0x00000000#32))
    (broadcastInDim S600000x1 ![0] bcast_S600000_S600000x1_0 dv) g

/-- Each node's in-degree: a one per edge, scatter-added onto zeros at the (unwrapped) destination ids. -/
def deg (dst : IVec S600000 32) : FVec Ideal S50000 .f32 :=
  Host.scatterAdd scatter_S50000_S600000x1_S600000_n_0_0_1 (broadcastInDim S50000 ![] bcast_S_S50000 (constant S_ .f32 0x00000000#32))
    (broadcastInDim S600000x1 ![0] bcast_S600000_S600000x1_0 dst)
    (broadcastInDim S600000 ![] bcast_S_S600000 (constant S_ .f32 0x3F800000#32))

/-- Each node's weight 1 / (deg + 1), as a column. -/
def inv (dst : IVec S600000 32) : FVec Ideal S50000x1 .f32 :=
  Host.divf (broadcastInDim S50000x1 ![] bcast_S_S50000x1 (constant S_ .f32 0x3F800000#32))
    (addf (shapeCast S50000x1 (deg dst) shapeCasts_S50000_S50000x1)
      (broadcastInDim S50000x1 ![] bcast_S_S50000x1 (constant S_ .f32 0x3F800000#32)))

variable (m : (ℓ : Loc nD τ sig) → Buf (Elt Ideal) ℓ) (ρ : Dev nD → PrngReg)

/-! ## What the first grid finds -/

theorem V1_arg0 (c : Dev nD) : V1 m ρ c main_arg0 = m ((c : Thread nD τ).loc main_arg0) := by
  show StableHlo.after hostOps0 (W0 m ρ c) (Proc.devRef .tc main_arg0) = _
  after_results_simp
theorem V1_arg1 (c : Dev nD) : V1 m ρ c main_arg1 = m ((c : Thread nD τ).loc main_arg1) := by
  show StableHlo.after hostOps0 (W0 m ρ c) (Proc.devRef .tc main_arg1) = _
  after_results_simp
theorem V1_arg2 (c : Dev nD) : V1 m ρ c main_arg2 = m ((c : Thread nD τ).loc main_arg2) := by
  show StableHlo.after hostOps0 (W0 m ρ c) (Proc.devRef .tc main_arg2) = _
  after_results_simp
theorem V1_arg3 (c : Dev nD) : V1 m ρ c main_arg3 = m ((c : Thread nD τ).loc main_arg3) := by
  show StableHlo.after hostOps0 (W0 m ρ c) (Proc.devRef .tc main_arg3) = _
  after_results_simp
theorem V1_arg4 (c : Dev nD) : V1 m ρ c main_arg4 = m ((c : Thread nD τ).loc main_arg4) := by
  show StableHlo.after hostOps0 (W0 m ρ c) (Proc.devRef .tc main_arg4) = _
  after_results_simp
theorem V1_arg5 (c : Dev nD) : V1 m ρ c main_arg5 = m ((c : Thread nD τ).loc main_arg5) := by
  show StableHlo.after hostOps0 (W0 m ρ c) (Proc.devRef .tc main_arg5) = _
  after_results_simp
theorem V1_arg6 (c : Dev nD) : V1 m ρ c main_arg6 = m ((c : Thread nD τ).loc main_arg6) := by
  show StableHlo.after hostOps0 (W0 m ρ c) (Proc.devRef .tc main_arg6) = _
  after_results_simp

set_option maxHeartbeats 8000000 in
/-- The first layer's messages: the rows of x at the source nodes, summed into the (wrapped) destination nodes. -/
theorem V1_msg (c : Dev nD) : V1 m ρ c main_v23
    = agg (gath (m ((c : Thread nD τ).loc main_arg0)) (m ((c : Thread nD τ).loc main_arg1))) (wrap (m ((c : Thread nD τ).loc main_arg2))) := by
  show StableHlo.after hostOps0 (W0 m ρ c) (Proc.devRef .tc main_v23) = _
  after_results_simp; rfl

set_option maxHeartbeats 8000000 in
/-- The per-node weights. -/
theorem V1_inv (c : Dev nD) : V1 m ρ c main_v8 = inv (m ((c : Thread nD τ).loc main_arg2)) := by
  show StableHlo.after hostOps0 (W0 m ρ c) (Proc.devRef .tc main_v8) = _
  after_results_simp; rfl

/-- H: the first layer's array, what the first grid leaves. -/
def H (c : Dev nD) : S50000x128.Idx → EReal :=
  layer leaky (m ((c : Thread nD τ).loc main_arg0))
    (agg (gath (m ((c : Thread nD τ).loc main_arg0)) (m ((c : Thread nD τ).loc main_arg1))) (wrap (m ((c : Thread nD τ).loc main_arg2))))
    (inv (m ((c : Thread nD τ).loc main_arg2))) (m ((c : Thread nD τ).loc main_arg3)) (m ((c : Thread nD τ).loc main_arg4))

/-! ## After the first grid -/

/-- The first grid's output array holds H. -/
theorem W2_h (c : Dev nD) : W2 m ρ c (Proc.devRef .tc main_v24) = H m c := by
  refine (W2_arr m ρ c 5).trans ((R0.final (V1 m ρ) c).trans ?_)
  unfold R0.G H
  rw [V1_arg0, V1_msg, V1_inv, V1_arg3, V1_arg4]

/-- An argument that is not one of the first grid's arrays is as the host stretch left it. -/
theorem W2_arg1 (c : Dev nD) : W2 m ρ c (Proc.devRef .tc main_arg1) = m ((c : Thread nD τ).loc main_arg1) :=
  (W2_of_ne m ρ c main_arg1 (by decide)).trans (V1_arg1 m ρ c)
theorem W2_arg2 (c : Dev nD) : W2 m ρ c (Proc.devRef .tc main_arg2) = m ((c : Thread nD τ).loc main_arg2) :=
  (W2_of_ne m ρ c main_arg2 (by decide)).trans (V1_arg2 m ρ c)
theorem W2_arg5 (c : Dev nD) : W2 m ρ c (Proc.devRef .tc main_arg5) = m ((c : Thread nD τ).loc main_arg5) :=
  (W2_of_ne m ρ c main_arg5 (by decide)).trans (V1_arg5 m ρ c)
theorem W2_arg6 (c : Dev nD) : W2 m ρ c (Proc.devRef .tc main_arg6) = m ((c : Thread nD τ).loc main_arg6) :=
  (W2_of_ne m ρ c main_arg6 (by decide)).trans (V1_arg6 m ρ c)
/-- The weights are an input array of the first grid: it leaves them as it found them. -/
theorem W2_inv (c : Dev nD) : W2 m ρ c (Proc.devRef .tc main_v8) = inv (m ((c : Thread nD τ).loc main_arg2)) :=
  (W2_arr m ρ c 2).trans ((((dat0 (V1 m ρ) c).arrAt_in 2 rfl _).trans (A_eq0 (V1 m ρ) c 2)).trans (V1_inv m ρ c))

/-! ## What the second grid finds -/

theorem V3_h (c : Dev nD) : V3 m ρ c main_v24 = H m c := by
  show StableHlo.after hostOps1 (W2 m ρ c) (Proc.devRef .tc main_v24) = _
  after_results_simp
  exact W2_h m ρ c
theorem V3_inv (c : Dev nD) : V3 m ρ c main_v8 = inv (m ((c : Thread nD τ).loc main_arg2)) := by
  show StableHlo.after hostOps1 (W2 m ρ c) (Proc.devRef .tc main_v8) = _
  after_results_simp
  exact W2_inv m ρ c
theorem V3_arg5 (c : Dev nD) : V3 m ρ c main_arg5 = m ((c : Thread nD τ).loc main_arg5) := by
  show StableHlo.after hostOps1 (W2 m ρ c) (Proc.devRef .tc main_arg5) = _
  after_results_simp
  exact W2_arg5 m ρ c
theorem V3_arg6 (c : Dev nD) : V3 m ρ c main_arg6 = m ((c : Thread nD τ).loc main_arg6) := by
  show StableHlo.after hostOps1 (W2 m ρ c) (Proc.devRef .tc main_arg6) = _
  after_results_simp
  exact W2_arg6 m ρ c

set_option maxHeartbeats 8000000 in
/-- The second layer's messages: the rows of H at the source nodes (widened to f32, the same numbers), summed into
    the (wrapped) destination nodes. -/
theorem V3_msg (c : Dev nD) : V3 m ρ c main_v40
    = agg (extf .f32 (gath (φ := .bf16) (H m c) (m ((c : Thread nD τ).loc main_arg1))) bitsLt_bf16_f32) (wrap (m ((c : Thread nD τ).loc main_arg2))) := by
  show StableHlo.after hostOps1 (W2 m ρ c) (Proc.devRef .tc main_v40) = _
  after_results_simp
  rw [W2_h, W2_arg1, W2_arg2]
  rfl

/-! ## The result -/

/-- The kernel's result array: the second layer's function of H, H's messages and the weights. -/
def out (c : Dev nD) : S50000x128.Idx → EReal :=
  layer id (H m c)
    (agg (extf .f32 (gath (φ := .bf16) (H m c) (m ((c : Thread nD τ).loc main_arg1))) bitsLt_bf16_f32) (wrap (m ((c : Thread nD τ).loc main_arg2))))
    (inv (m ((c : Thread nD τ).loc main_arg2))) (m ((c : Thread nD τ).loc main_arg5)) (m ((c : Thread nD τ).loc main_arg6))

/-- After the last segment the result buffer holds it. -/
theorem W4_out (c : Dev nD) : W4 m ρ c (Proc.devRef .tc main_v41) = out m c := by
  refine (W4_arr m ρ c 5).trans ((R1.final (V3 m ρ) c).trans ?_)
  unfold R1.G out
  rw [V3_h, V3_msg, V3_inv, V3_arg5, V3_arg6]

end Cert.KernelIdeal.Hand

end
-- ==== Proof.Law.lean ====
/-
  The arithmetic on the extended reals that joins the two programs. The kernel multiplies a node's summed features by
  a precomputed reciprocal 1 / (deg + 1); the reference divides them by deg + 1. On the extended reals a quotient by a
  divisor other than zero is the product with the divisor's inverse, so the two agree for EVERY numerator, finite or
  not, as soon as deg + 1 is not zero; and deg, a sum of ones added onto zero, is not negative.
-/
import Idealize.ShloMosaic.PureOps.Ideal
import Idealize.ShloMosaic.PureOps.Ideal.Laws
import Idealize.ShloMosaic.PureOps.IdealRules
import Idealize.ShloMosaic.PureOps.Contract
import Idealize.ShloMosaic.Lib.ValueIdx
import proofs.«100668_j71468255805600_2_alg».proof.Proof.Spec

noncomputable section

namespace Cert.Hand.Law

open Idealize.ShloMosaic Idealize.ShloMosaic.ValueIdx Cert.Hand.Spec

/-- The f32 word of 1.0 denotes the extended real 1. -/
theorem one_f32 : Ideal.ofBits .f32 0x3F800000#32 = 1 := IdealRules.sign_bit.ideal_onePat .f32

/-- A product with the reciprocal of a divisor other than zero is the quotient by it, whatever the numerator:
    both are the numerator times the divisor's inverse. -/
theorem mul_one_div (a d : EReal) (hd : d ≠ 0) : a * Ideal.div 1 d = Ideal.div a d := by
  unfold Ideal.div
  rw [if_neg hd, if_neg hd, one_mul]

/-- A number that is not negative, plus one, is not zero. -/
theorem succ_ne_zero (a : EReal) (ha : 0 ≤ a) : a + 1 ≠ 0 :=
  (lt_of_lt_of_le zero_lt_one (le_add_of_nonneg_left ha)).ne'

/-- An accumulating scatter of updates that are not negative, onto entries that are not negative, leaves entries that
    are not negative: each is the old entry plus a sum of updates. -/
theorem scatterAdd_nonneg {s si su : Shape} (d : ScatterDims s si su) {w : Nat} (x : FVec Ideal s .f32) (idx : IVec si w)
    (u : FVec Ideal su .f32) (hx : ∀ i, 0 ≤ x i) (hu : ∀ j, 0 ≤ u j) (i : s.Idx) :
    (0 : EReal) ≤ Host.scatterAdd d x idx u i := by
  show (0 : EReal) ≤ Ideal.hostScatterAdd d x idx u i
  unfold Ideal.hostScatterAdd
  exact add_nonneg (hx i) (Finset.sum_nonneg fun j _ => hu j)

/-- One entry of a layer as the reference computes it: the node's summed row DIVIDED by its in-degree plus one. -/
def refEntry {n : Nat} (act : EReal → EReal) (h msg : (⟨2, ![n, 128]⟩ : Shape).Idx → EReal)
    (dg : (⟨1, ![n]⟩ : Shape).Idx → EReal) (W : (⟨2, ![128, 128]⟩ : Shape).Idx → EReal)
    (b : (⟨1, ![128]⟩ : Shape).Idx → EReal) (p : Fin n) (c : Fin 128) : EReal :=
  act ((∑ k : Fin 128, Ideal.div (msg (ix2 p k) + h (ix2 p k)) (dg (ix1 p) + Ideal.ofBits .f32 0x3F800000#32) * W (ix2 k c))
    + b (ix1 c))

/-- The reference's layer, as a whole array. -/
def refLayer {n : Nat} (act : EReal → EReal) (h msg : (⟨2, ![n, 128]⟩ : Shape).Idx → EReal)
    (dg : (⟨1, ![n]⟩ : Shape).Idx → EReal) (W : (⟨2, ![128, 128]⟩ : Shape).Idx → EReal)
    (b : (⟨1, ![128]⟩ : Shape).Idx → EReal) : (⟨2, ![n, 128]⟩ : Shape).Idx → EReal :=
  fun i => refEntry act h msg dg W b (i 0) (i 1)

/-- THE LAW that joins the two programs, entry by entry: with the node's weight the reciprocal of its in-degree plus
    one, and an in-degree that is not negative, the kernel's product is the reference's quotient in every term of the
    sum — no term is moved across the sum, so nothing is asked of the features' finiteness. -/
theorem entry_eq_refEntry {n : Nat} (act : EReal → EReal) (h msg : (⟨2, ![n, 128]⟩ : Shape).Idx → EReal)
    (q : (⟨2, ![n, 1]⟩ : Shape).Idx → EReal) (dg : (⟨1, ![n]⟩ : Shape).Idx → EReal)
    (W : (⟨2, ![128, 128]⟩ : Shape).Idx → EReal) (b : (⟨1, ![128]⟩ : Shape).Idx → EReal) (p : Fin n) (c : Fin 128)
    (hq : q (ix2 p (0 : Fin 1)) = Ideal.div (Ideal.ofBits .f32 0x3F800000#32) (dg (ix1 p) + Ideal.ofBits .f32 0x3F800000#32))
    (hdg : 0 ≤ dg (ix1 p)) :
    entry act h msg q W b p c = refEntry act h msg dg W b p c := by
  unfold entry refEntry
  rw [hq, one_f32]
  refine congrArg (fun s => act (s + b (ix1 c))) (Finset.sum_congr rfl fun k _ => ?_)
  rw [mul_one_div _ _ (succ_ne_zero _ hdg)]

/-- The same for whole arrays. -/
theorem layer_eq_refLayer {n : Nat} (act : EReal → EReal) (h msg : (⟨2, ![n, 128]⟩ : Shape).Idx → EReal)
    (q : (⟨2, ![n, 1]⟩ : Shape).Idx → EReal) (dg : (⟨1, ![n]⟩ : Shape).Idx → EReal)
    (W : (⟨2, ![128, 128]⟩ : Shape).Idx → EReal) (b : (⟨1, ![128]⟩ : Shape).Idx → EReal)
    (hq : ∀ p : Fin n, q (ix2 p (0 : Fin 1)) = Ideal.div (Ideal.ofBits .f32 0x3F800000#32) (dg (ix1 p) + Ideal.ofBits .f32 0x3F800000#32))
    (hdg : ∀ p : Fin n, 0 ≤ dg (ix1 p)) :
    layer act h msg q W b = refLayer act h msg dg W b :=
  funext fun i => entry_eq_refEntry act h msg q dg W b (i 0) (i 1) (hq _) (hdg _)

end Cert.Hand.Law

end
-- ==== Proof.RefSide.lean ====
/-
  The reference, layer by layer. Each of its two layers gathers the source nodes' rows, sums them into the destination
  nodes, adds the node's own row, divides by the in-degree plus one, multiplies by the weight matrix and adds the bias;
  the first layer then applies the activation. Read at an entry through the generated stage lemmas, each layer is the
  reference's entry formula over the layer's input, its aggregated messages and the in-degrees.
-/
import proofs.«100668_j71468255805600_2_alg».proof.Proof.Gen.ReferenceIdeal.Read
import proofs.«100668_j71468255805600_2_alg».proof.Proof.Law

noncomputable section

namespace Cert.ReferenceIdeal.Hand

open Cert.ReferenceIdeal Cert.ReferenceIdeal.Read Cert.Hand.Spec Cert.Hand.Law
open Idealize.ShloMosaic Idealize.ShloMosaic.TcCoe Idealize.ShloMosaic.ValueIdx

/-- The first layer before its activation, at row p and feature c. -/
theorem pre1_entry (x0 : (⟨S50000x128, .f32⟩ : BufTy).Contents (Elt Ideal)) (x1 x2 : (⟨S600000, .i32⟩ : BufTy).Contents (Elt Ideal)) (x3 : (⟨S128x128, .f32⟩ : BufTy).Contents (Elt Ideal)) (x4 : (⟨S128, .f32⟩ : BufTy).Contents (Elt Ideal)) (p : Fin 50000) (c : Fin 128) :
    val_main_v23 (F := Ideal) x0 x1 x2 x3 x4 (ix2 p c)
      = refEntry id x0 (val_main_v9 (F := Ideal) x0 x1 x2) (val_main_v13 (F := Ideal) x2) x3 x4 p c := by
  have el : ∀ k : Fin 128, lidx_main_v20 (ix2 p c) k = ix2 p k := fun k => funext fun a => by
    match a with | ⟨0, _⟩ => rfl | ⟨1, _⟩ => rfl
  have er : ∀ k : Fin 128, ridx_main_v20 (ix2 p c) k = ix2 k c := fun k => funext fun a => by
    match a with | ⟨0, _⟩ => rfl | ⟨1, _⟩ => rfl
  have eb : idx_main_v21 (idx_main_v22 (ix2 p c)) = ix1 c := funext fun a => by match a with | ⟨0, _⟩ => rfl
  have ed : ∀ k : Fin 128, idx_main_v15 (idx_main_v18 (ix2 p k)) = ix1 p := fun k => funext fun a => by
    match a with | ⟨0, _⟩ => rfl
  rw [val_main_v23_apply, val_main_v20_apply, val_main_v22_apply, val_main_v21_apply, eb]
  unfold refEntry
  refine congrArg (· + x4 (ix1 c)) (Finset.sum_congr rfl fun k _ => ?_)
  rw [el, er, val_main_v19_apply, val_main_v14_apply, val_main_v18_apply, val_main_v17_apply, val_main_v15_apply,
    val_main_v16_apply, val_main_cst_3_apply, ed]
  rfl

/-- The first layer: the reference's layer of x, x's messages and the in-degrees, through the activation. -/
theorem layer1 (x0 : (⟨S50000x128, .f32⟩ : BufTy).Contents (Elt Ideal)) (x1 x2 : (⟨S600000, .i32⟩ : BufTy).Contents (Elt Ideal)) (x3 : (⟨S128x128, .f32⟩ : BufTy).Contents (Elt Ideal)) (x4 : (⟨S128, .f32⟩ : BufTy).Contents (Elt Ideal)) :
    val_main_v28 (F := Ideal) x0 x1 x2 x3 x4
      = refLayer leaky x0 (val_main_v9 (F := Ideal) x0 x1 x2) (val_main_v13 (F := Ideal) x2) x3 x4 := by
  funext i
  obtain ⟨p, c, rfl⟩ : ∃ (p : Fin 50000) (c : Fin 128), i = ix2 p c := ⟨i 0, i 1, eq_ix2 i⟩
  rw [val_main_v28_apply, val_main_v25_apply, val_main_v27_apply, val_main_v24_apply, val_main_v26_apply,
    val_main_cst_4_apply, val_main_cst_5_apply, pre1_entry]
  rfl

/-- The second layer at row p and feature c: the same formula over the first layer's output, ITS messages and the
    in-degrees, with no activation. -/
theorem layer2_entry (x0 : (⟨S50000x128, .f32⟩ : BufTy).Contents (Elt Ideal)) (x1 x2 : (⟨S600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (p : Fin 50000) (c : Fin 128) :
    val_main_v52 (F := Ideal) x0 x1 x2 x3 x4 x5 x6 (ix2 p c)
      = refEntry id (val_main_v28 (F := Ideal) x0 x1 x2 x3 x4) (val_main_v38 (F := Ideal) x0 x1 x2 x3 x4)
          (val_main_v42 (F := Ideal) x2) x5 x6 p c := by
  have el : ∀ k : Fin 128, lidx_main_v49 (ix2 p c) k = ix2 p k := fun k => funext fun a => by
    match a with | ⟨0, _⟩ => rfl | ⟨1, _⟩ => rfl
  have er : ∀ k : Fin 128, ridx_main_v49 (ix2 p c) k = ix2 k c := fun k => funext fun a => by
    match a with | ⟨0, _⟩ => rfl | ⟨1, _⟩ => rfl
  have eb : idx_main_v50 (idx_main_v51 (ix2 p c)) = ix1 c := funext fun a => by match a with | ⟨0, _⟩ => rfl
  have ed : ∀ k : Fin 128, idx_main_v44 (idx_main_v47 (ix2 p k)) = ix1 p := fun k => funext fun a => by
    match a with | ⟨0, _⟩ => rfl
  rw [val_main_v52_apply, val_main_v49_apply, val_main_v51_apply, val_main_v50_apply, eb]
  unfold refEntry
  refine congrArg (· + x6 (ix1 c)) (Finset.sum_congr rfl fun k _ => ?_)
  rw [el, er, val_main_v48_apply, val_main_v43_apply, val_main_v47_apply, val_main_v46_apply, val_main_v44_apply,
    val_main_v45_apply, val_main_cst_11_apply, ed]
  rfl

/-- The second layer as a whole array. -/
theorem layer2 (x0 : (⟨S50000x128, .f32⟩ : BufTy).Contents (Elt Ideal)) (x1 x2 : (⟨S600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v52 (F := Ideal) x0 x1 x2 x3 x4 x5 x6
      = refLayer id (val_main_v28 (F := Ideal) x0 x1 x2 x3 x4) (val_main_v38 (F := Ideal) x0 x1 x2 x3 x4)
          (val_main_v42 (F := Ideal) x2) x5 x6 := by
  funext i
  obtain ⟨p, c, rfl⟩ : ∃ (p : Fin 50000) (c : Fin 128), i = ix2 p c := ⟨i 0, i 1, eq_ix2 i⟩
  exact layer2_entry x0 x1 x2 x3 x4 x5 x6 p c

end Cert.ReferenceIdeal.Hand

end
-- ==== Proof.PreDst.lean ====
/-
  What the precondition says of the destination node ids, and what follows for the kernel's scatter. The precondition's
  last conjunct is "every destination id is at least zero" (an and-reduction of the comparisons, which must come out 1).
  The kernel's message aggregation first wraps a negative id by adding the number of nodes (NumPy-style indexing); the
  reference's segment sum does not. For an id that is not negative the wrap does nothing, so under the precondition the
  kernel scatters at exactly the reference's indices.
-/
import proofs.«100668_j71468255805600_2_alg».proof.Pre_finite_inputs
import proofs.«100668_j71468255805600_2_alg».proof.Proof.Gen.Pre_finite_inputs
import Idealize.ShloMosaic.Lib.ReduceAll
import Idealize.ShloMosaic.Lib.ValueIdx

noncomputable section

namespace Cert.Hand.PreDst

open Idealize.ShloMosaic Cert.Pre_finite_inputs

instance : Subsingleton S_.Idx := ⟨fun a b => funext fun d => d.elim0⟩

/-- The precondition decoded at one edge e: its destination id, read signed, is at least zero. -/
theorem dst_sge {F : FTy → Type} [FloatOps F] (a0 : FVec F S50000x128 .f32) (a1 a2 : IVec S600000 32)
    (a3 : FVec F S128x128 .f32) (a4 : FVec F S128 .f32) (a5 : FVec F S128x128 .f32) (a6 : FVec F S128 .f32)
    (h : Cert.Pre_finite_inputs.fn (F := F) a0 a1 a2 a3 a4 a5 a6 = fun _ => 1#1) (e : S600000.Idx) :
    IntOp.cmpi .sge (a2 e) 0#32 = 1#1 := by
  have h0 := congrFun h ValueIdx.ix0
  unfold Cert.Pre_finite_inputs.fn Cert.Pre_finite_inputs.fn_part1 at h0
  dsimp only at h0
  have h1 := (IntOp.andi_eq_one.1 h0).2
  exact Host.reduce_andi_all _ _ _ _ _ h1 e

/-- Wrapping an id that is not negative leaves it as it is. -/
theorem wrap_self (w a : BitVec 32) (h : IntOp.cmpi .sge w 0#32 = 1#1) :
    Scalar.select (IntOp.cmpi .slt w 0#32) a w = w := by
  unfold Scalar.select
  rw [if_neg]
  intro hlt
  have h1 := IntOp.cmpi_sge.1 h
  have h2 := IntOp.cmpi_slt.1 hlt
  omega

end Cert.Hand.PreDst

end
-- ==== Proof.Bridge.lean ====
/-
  The two programs compute one function. Under the precondition every destination id is at least zero, so the kernel's
  wrapped ids are the ids themselves and its message sums are the reference's segment sums; the in-degree is a sum of
  ones onto zero, so it is not negative, the kernel's weight column is 1 / (deg + 1) with deg + 1 not zero, and each
  kernel layer (row times weight, then the matrix product) is the reference's layer (row divided by deg + 1, then the
  matrix product) entry by entry. The first layers agree, hence so do the second layers' inputs and messages, hence the
  results.
-/
import proofs.«100668_j71468255805600_2_alg».proof.Defs
import proofs.«100668_j71468255805600_2_alg».proof.Proof.HostSide
import proofs.«100668_j71468255805600_2_alg».proof.Proof.RefSide
import proofs.«100668_j71468255805600_2_alg».proof.Proof.PreDst
import proofs.«100668_j71468255805600_2_alg».proof.Proof.Law
import Idealize.ShloMosaic.Lib.Pipeline.Value

set_option maxRecDepth 16384

noncomputable section

namespace Cert.KernelIdeal.Hand.Bridge

open Cert.KernelIdeal Cert.KernelIdeal.Gen Cert.KernelIdeal.Hand Cert.Hand.Spec Cert.Hand.Law
open Idealize.ShloMosaic Idealize.ShloMosaic.TcCoe Idealize.ShloMosaic.ValueIdx Idealize.SL.Sem

/-- Ids that are all at least zero are their own wrapping. -/
theorem wrap_self (D : IVec S600000 32) (hD : ∀ e, IntOp.cmpi .sge (D e) 0#32 = 1#1) : wrap D = D := by
  funext e
  show Scalar.select (IntOp.cmpi .slt (D e) 0#32) _ (D e) = D e
  exact Cert.Hand.PreDst.wrap_self _ _ (hD e)

/-- An in-degree is not negative: ones summed onto zero. -/
theorem deg_nonneg (D : IVec S600000 32) (i : S50000.Idx) : (0 : EReal) ≤ deg D i := by
  unfold deg
  refine scatterAdd_nonneg _ _ _ _ (fun i => ?_) (fun j => ?_) i
  · show (0 : EReal) ≤ Ideal.ofBits .f32 0x00000000#32
    rw [Ideal.ofBits_zero_f32]
  · show (0 : EReal) ≤ Ideal.ofBits .f32 0x3F800000#32
    rw [one_f32]; exact zero_le_one

/-- The weight column at node p: one over the node's in-degree plus one. -/
theorem inv_at (D : IVec S600000 32) (p : Fin 50000) :
    inv D (ix2 p (0 : Fin 1)) = Ideal.div (Ideal.ofBits .f32 0x3F800000#32) (deg D (ix1 p) + Ideal.ofBits .f32 0x3F800000#32) := by
  have e : shapeCast S50000x1 (deg D) shapeCasts_S50000_S50000x1 (ix2 p (0 : Fin 1)) = deg D (ix1 p) :=
    shapeCast_apply _ _ _ _ (by
      rw [Shape.rowMajor_val_two, Shape.rowMajor_val_one]
      show p.val = p.val * 1 + 0
      omega)
  have hdiv : ∀ (a b : FVec Ideal S50000x1 .f32) (j : S50000x1.Idx), Host.divf a b j = Ideal.div (a j) (b j) :=
    fun _ _ _ => rfl
  unfold inv
  rw [hdiv, addf_apply, e]
  rfl

/-- A kernel layer is the reference's layer over the same input, messages and in-degrees. -/
theorem klayer (act : EReal → EReal) (h msg : S50000x128.Idx → EReal) (D : IVec S600000 32) (W : S128x128.Idx → EReal)
    (b : S128.Idx → EReal) : layer act h msg (inv D) W b = refLayer act h msg (deg D) W b :=
  layer_eq_refLayer act h msg (inv D) (deg D) W b (fun p => inv_at D p) (fun p => deg_nonneg D _)

/-- THE BRIDGE over plain arrays: the kernel's two layers, each over its own gathered-and-summed messages, are the
    reference's result. -/
theorem core (X : FVec Ideal S50000x128 .f32) (S D : IVec S600000 32) (W1 : FVec Ideal S128x128 .f32) (B1 : FVec Ideal S128 .f32)
    (W2 : FVec Ideal S128x128 .f32) (B2 : FVec Ideal S128 .f32) (hD : ∀ e, IntOp.cmpi .sge (D e) 0#32 = 1#1) :
    layer id (layer leaky X (agg (gath X S) (wrap D)) (inv D) W1 B1)
      (agg (extf .f32 (gath (φ := .bf16) (layer leaky X (agg (gath X S) (wrap D)) (inv D) W1 B1) S) bitsLt_bf16_f32) (wrap D))
      (inv D) W2 B2
    = Cert.ReferenceIdeal.Read.val_main_v52 (F := Ideal) X S D W1 B1 W2 B2 := by
  have h1 : layer leaky X (agg (gath X S) (wrap D)) (inv D) W1 B1
      = Cert.ReferenceIdeal.Read.val_main_v28 (F := Ideal) X S D W1 B1 := by
    rw [klayer, wrap_self D hD, Cert.ReferenceIdeal.Hand.layer1]
    rfl
  rw [h1, klayer, wrap_self D hD, Cert.ReferenceIdeal.Hand.layer2]
  -- the second layer's messages: the same gather and scatter-add of the first layer's array, whatever that array is
  unfold Cert.ReferenceIdeal.Read.val_main_v38 Cert.ReferenceIdeal.Read.val_main_v35
  generalize Cert.ReferenceIdeal.Read.val_main_v28 (F := Ideal) X S D W1 B1 = V
  rfl

/-- The kernel's result array is the reference's result term of the same arguments. -/
theorem out_eq (m : (ℓ : Loc nD τ sig) → Buf (Elt Ideal) ℓ) (hpre : Cert.Pre_KernelIdeal m) (c : Dev nD) :
    out m c = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold out H
  exact core _ _ _ _ _ _ _ (fun e => Cert.Hand.PreDst.dst_sge _ _ _ _ _ _ _ (hpre c) e)

end Cert.KernelIdeal.Hand.Bridge

end
-- ==== Proof.lean ====
/-
  A two-layer graph network, each layer: for every node, the sum of its in-neighbours' feature rows plus its own row,
  normalised by its in-degree plus one, times a weight matrix, plus a bias (the first layer through a leaky
  activation). The kernel precomputes the reciprocal 1 / (deg + 1) once and multiplies, runs the dense part of each
  layer as a grid of ten blocks of 5000 nodes, and sums messages with an indexed scatter-add that wraps negative ids;
  the reference divides by deg + 1 and sums with a segment sum that drops them. On the extended reals, for destination
  ids that are not negative, the two are the same function of the arguments:

    * the wrap does nothing, so both sum the same rows into the same nodes (Proof/PreDst.lean, Proof/Bridge.lean);
    * deg is a sum of ones, so deg + 1 is not zero and x · (1 / (deg + 1)) = x / (deg + 1) for every x, term by term
      under the matrix product's sum (Proof/Law.lean);
    * a row of a layer's output depends only on the same row of its inputs, so the ten blocks are the blocks of one
      whole-array function (Proof/Body.lean, Proof/Region0.lean, Proof/Region1.lean);
    * the kernel's run names its result (Proof/KernelRun.lean, Proof/HostSide.lean); the reference's is its generated
      run read stage by stage (Proof/RefSide.lean).
-/
import proofs.«100668_j71468255805600_2_alg».proof.Defs
import proofs.«100668_j71468255805600_2_alg».proof.Proof.Gen.Kernel
import proofs.«100668_j71468255805600_2_alg».proof.Proof.Gen.Kernel.Frame
import proofs.«100668_j71468255805600_2_alg».proof.Proof.Gen.KernelIdeal
import proofs.«100668_j71468255805600_2_alg».proof.Proof.Gen.KernelIdeal.Frame
import proofs.«100668_j71468255805600_2_alg».proof.Proof.Gen.ReferenceIdeal
import proofs.«100668_j71468255805600_2_alg».proof.Proof.Gen.ReferenceIdeal.Run
import proofs.«100668_j71468255805600_2_alg».proof.Proof.Gen.ReferenceIdeal.Read
import proofs.«100668_j71468255805600_2_alg».proof.Proof.Gen.Pre_finite_inputs
import proofs.«100668_j71468255805600_2_alg».proof.Proof.KernelRun
import proofs.«100668_j71468255805600_2_alg».proof.Proof.HostSide
import proofs.«100668_j71468255805600_2_alg».proof.Proof.Bridge

noncomputable section

namespace Cert.Proof

open Idealize.ShloMosaic Idealize.SL.Sem

/-- The kernel as printed runs and leaves its arguments unchanged. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the same result array: the kernel's is its two layer functions of the arguments, the
    reference's its composed term of the same arguments, and the two are one function (Proof/Bridge.lean). -/
theorem algebraic : Cert.algebraic_KernelIdeal_ReferenceIdeal := by
  intro m ρ m' ρ' hpre hagree
  refine ⟨fun c => Cert.KernelIdeal.Hand.out m c, ?_, ?_⟩
  · exact (θ_run Cert.KernelIdeal.defs _ _).mono
      (fun r h c => ⟨(h c).1.trans (Cert.KernelIdeal.Hand.W4_out m ρ c), (h c).2⟩) (Cert.KernelIdeal.Hand.run_out m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v52_eq, (hagree c).1, (hagree c).2.1, (hagree c).2.2.1, (hagree c).2.2.2.1, (hagree c).2.2.2.2.1, (hagree c).2.2.2.2.2.1, (hagree c).2.2.2.2.2.2]
    exact (Cert.KernelIdeal.Hand.Bridge.out_eq m hpre c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
